-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S800000x2 : Shape := ⟨2, ![800000, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S800000 .f32) (main_arg2 : FVec F S256x128 .f32) (main_arg3 : FVec F S128x128 .f32) (main_arg4 : FVec F S128 .f32) (main_arg5 : IVec S800000x2 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S800000x2 : Shape := ⟨2, ![800000, 2]⟩
abbrev S800000x1 : Shape := ⟨2, ![800000, 1]⟩
abbrev S50000 : Shape := ⟨1, ![50000]⟩
abbrev S850000 : Shape := ⟨1, ![850000]⟩
abbrev S_ : Shape := ⟨0, ![]⟩
abbrev S850000x1 : Shape := ⟨2, ![850000, 1]⟩
abbrev S128x256 : Shape := ⟨2, ![128, 256]⟩
abbrev S5000x128 : Shape := ⟨2, ![5000, 128]⟩
abbrev S5000x256 : Shape := ⟨2, ![5000, 256]⟩
abbrev S50000x256 : Shape := ⟨2, ![50000, 256]⟩
abbrev S850000x256 : Shape := ⟨2, ![850000, 256]⟩
abbrev S850000x128 : Shape := ⟨2, ![850000, 128]⟩
abbrev S1x128 : Shape := ⟨2, ![1, 128]⟩

abbrev nBuf : Space → Nat
  | .hbm => 110
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S256x128, .f32⟩
  | .hbm, ⟨3, _⟩ => ⟨S128x128, .f32⟩
  | .hbm, ⟨4, _⟩ => ⟨S128, .f32⟩
  | .hbm, ⟨5, _⟩ => ⟨S800000x2, .i32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000, .f32⟩
  | .hbm, ⟨50, _⟩ => ⟨S850000, .f32⟩
  | .hbm, ⟨51, _⟩ => ⟨S128x128, .f32⟩
  | .hbm, ⟨52, _⟩ => ⟨S128x128, .f32⟩
  | .hbm, ⟨53, _⟩ => ⟨S128x256, .f32⟩
  | .hbm, ⟨54, _⟩ => ⟨S50000x128, .f32⟩
  | .hbm, ⟨55, _⟩ => ⟨S50000x128, .f32⟩
  | .hbm, ⟨56, _⟩ => ⟨S50000x256, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x256, .f32⟩
  | .hbm, ⟨66, _⟩ => ⟨S850000x128, .f32⟩
  | .hbm, ⟨67, _⟩ => ⟨S850000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x128, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S850000x128, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S50000x128, .f32⟩
  | .hbm, ⟨92, _⟩ => ⟨S850000x1, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000x128, .f32⟩
  | .hbm, ⟨102, _⟩ => ⟨S850000x128, .f32⟩
  | .hbm, ⟨103, _⟩ => ⟨S850000x128, .f32⟩
  | .hbm, ⟨104, _⟩ => ⟨S_, .f32⟩
  | .hbm, ⟨105, _⟩ => ⟨S50000x128, .f32⟩
  | .hbm, ⟨106, _⟩ => ⟨S850000x1, .i32⟩
  | .hbm, ⟨107, _⟩ => ⟨S50000x128, .f32⟩
  | .hbm, ⟨108, _⟩ => ⟨S128x128, .f32⟩
  | .hbm, ⟨109, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S128, .f32⟩
  | .local _ .vmem, ⟨11, _⟩ => ⟨S5000x128, .f32⟩
  | .local _ .vmem, ⟨12, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39_0 : Ref sig .tc := ⟨.hbm, 54, rfl⟩
abbrev main_v39_1 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_14 : Ref sig .tc := ⟨.hbm, 93, rfl⟩
abbrev main_v70 : Ref sig .tc := ⟨.hbm, 94, rfl⟩
abbrev main_v71 : Ref sig .tc := ⟨.hbm, 95, rfl⟩
abbrev main_c_15 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_16 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000_S50000_S850000_d0 : Shape.Concatenates [S800000, S50000] S850000 0
  bcast_S_S50000 : S_.BroadcastsInDim S50000 (![] : Fin 0 → Fin S50000.rank)
  bcast_S800000_S800000x1_0 : S800000.BroadcastsInDim S800000x1 (![0] : Fin 1 → Fin S800000x1.rank)
  bcast_S_S850000 : S_.BroadcastsInDim S850000 (![] : Fin 0 → Fin S850000.rank)
  bcast_S850000_S850000x1_0 : S850000.BroadcastsInDim S850000x1 (![0] : Fin 1 → Fin S850000x1.rank)
  slices_S256x128_S128x128_0_0 : S256x128.Slices ![0, 0] S128x128
  slices_S256x128_S128x128_128_0 : S256x128.Slices ![128, 0] S128x128
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S5000x256_o0_0_S5000x128 : S5000x256.Slices ![0, 0] S5000x128
  slices_S5000x256_o0_128_S5000x128 : S5000x256.Slices ![0, 128] S5000x128
  concatenates_S50000x128_S50000x128_S50000x256_d1 : Shape.Concatenates [S50000x128, S50000x128] S50000x256 1
  slices_S850000x256_S850000x128_0_0 : S850000x256.Slices ![0, 0] S850000x128
  slices_S850000x256_S850000x128_0_128 : S850000x256.Slices ![0, 128] S850000x128
  bcast_S_S850000x128 : S_.BroadcastsInDim S850000x128 (![] : Fin 0 → Fin S850000x128.rank)
  bcast_S_S50000x128 : S_.BroadcastsInDim S50000x128 (![] : Fin 0 → Fin S50000x128.rank)
  bcast_S850000x1_S850000x128_0_1 : S850000x1.BroadcastsInDim S850000x128 (![0, 1] : Fin 2 → Fin S850000x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39_1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v81) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v82) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v83) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S800000x2 : Shape := ⟨2, ![800000, 2]⟩
abbrev S800000x1 : Shape := ⟨2, ![800000, 1]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S256x128, .f32⟩
  | .hbm, ⟨3, _⟩ => ⟨S128x128, .f32⟩
  | .hbm, ⟨4, _⟩ => ⟨S128, .f32⟩
  | .hbm, ⟨5, _⟩ => ⟨S800000x2, .i32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000, .f32⟩
  | .hbm, ⟨50, _⟩ => ⟨S850000, .f32⟩
  | .hbm, ⟨51, _⟩ => ⟨S128x128, .f32⟩
  | .hbm, ⟨52, _⟩ => ⟨S128x128, .f32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x128, .f32⟩
  | .hbm, ⟨73, _⟩ => ⟨S850000x128, .f32⟩
  | .hbm, ⟨74, _⟩ => ⟨S850000x128, .f32⟩
  | .hbm, ⟨75, _⟩ => ⟨S850000x128, .f32⟩
  | .hbm, ⟨76, _⟩ => ⟨S_, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S850000x128, .f32⟩
  | .hbm, ⟨81, _⟩ => ⟨S850000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x128, .f32⟩
  | .hbm, ⟨91, _⟩ => ⟨S850000x128, .f32⟩
  | .hbm, ⟨92, _⟩ => ⟨S_, .f32⟩
  | .hbm, ⟨93, _⟩ => ⟨S50000x128, .f32⟩
  | .hbm, ⟨94, _⟩ => ⟨S850000x1, .i32⟩
  | .hbm, ⟨95, _⟩ => ⟨S50000x128, .f32⟩
  | .hbm, ⟨96, _⟩ => ⟨S50000x128, .f32⟩
  | .hbm, ⟨97, _⟩ => ⟨S850000x1, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x128, .f32⟩
  | .hbm, ⟨107, _⟩ => ⟨S850000x128, .f32⟩
  | .hbm, ⟨108, _⟩ => ⟨S850000x128, .f32⟩
  | .hbm, ⟨109, _⟩ => ⟨S_, .f32⟩
  | .hbm, ⟨110, _⟩ => ⟨S50000x128, .f32⟩
  | .hbm, ⟨111, _⟩ => ⟨S850000x1, .i32⟩
  | .hbm, ⟨112, _⟩ => ⟨S50000x128, .f32⟩
  | .hbm, ⟨113, _⟩ => ⟨S128x128, .f32⟩
  | .hbm, ⟨114, _⟩ => ⟨S50000x128, .f32⟩
  | .hbm, ⟨115, _⟩ => ⟨S1x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_16 : Ref sig .tc := ⟨.hbm, 98, rfl⟩
abbrev main_v74 : Ref sig .tc := ⟨.hbm, 99, rfl⟩
abbrev main_v75 : Ref sig .tc := ⟨.hbm, 100, rfl⟩
abbrev main_c_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_call0_cst : Ref sig .tc := ⟨.hbm, 118, rfl⟩
abbrev main_call0_v0 : Ref sig .tc := ⟨.hbm, 119, rfl⟩
abbrev main_v91 : Ref sig .tc := ⟨.hbm, 120, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000_S50000_S850000_d0 : Shape.Concatenates [S800000, S50000] S850000 0
  bcast_S_S50000 : S_.BroadcastsInDim S50000 (![] : Fin 0 → Fin S50000.rank)
  bcast_S800000_S800000x1_0 : S800000.BroadcastsInDim S800000x1 (![0] : Fin 1 → Fin S800000x1.rank)
  bcast_S_S850000 : S_.BroadcastsInDim S850000 (![] : Fin 0 → Fin S850000.rank)
  bcast_S850000_S850000x1_0 : S850000.BroadcastsInDim S850000x1 (![0] : Fin 1 → Fin S850000x1.rank)
  slices_S256x128_S128x128_0_0 : S256x128.Slices ![0, 0] S128x128
  slices_S256x128_S128x128_128_0 : S256x128.Slices ![128, 0] S128x128
  bcast_S_S850000x128 : S_.BroadcastsInDim S850000x128 (![] : Fin 0 → Fin S850000x128.rank)
  bcast_S_S50000x128 : S_.BroadcastsInDim S50000x128 (![] : Fin 0 → Fin S50000x128.rank)
  bcast_S850000x1_S850000x128_0_1 : S850000x1.BroadcastsInDim S850000x128 (![0, 1] : Fin 2 → Fin S850000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The two pure functions at which the kernel's program and the reference meet.

  * `wcat w`: the gate weight `w : [256, 128]` re-laid as `[128, 256]` — its rows 0–127 in columns 0–127 and its rows
    128–255 in columns 128–255 — so that ONE product `x · wcat w` holds `x · w[:128]` in its left half and
    `x · w[128:]` in its right half.
  * `outOf u w3 b`: the last layer applied to aggregated rows `u : [50000, 128]`: `max (u · w3ᵀ + b, 0)`, the bias `b`
    added to every row.
-/
import proofs.«178055_j16372415332361_2_alg».proof.Proof.Gen.KernelIdeal
import proofs.«178055_j16372415332361_2_alg».proof.Proof.Gen.ReferenceIdeal.Read

noncomputable section

namespace Cert.Bridge

open Idealize.ShloMosaic Idealize.ShloMosaic.TcCoe

/-- The gate weight's two halves side by side: entry `(k, j)` is `w[k, j]` for `j < 128` and `w[128 + k, j - 128]` for
    `j ≥ 128`. -/
def wcat (w : (⟨Cert.KernelIdeal.S256x128, .f32⟩ : BufTy).Contents (Elt Ideal)) :
    (⟨Cert.KernelIdeal.S128x256, .f32⟩ : BufTy).Contents (Elt Ideal) :=
  concatenate (α := EReal) Cert.KernelIdeal.S128x256 1
    [⟨Cert.KernelIdeal.S128x128, extractStridedSlice Cert.KernelIdeal.S128x128 ![0, 0] w Cert.KernelIdeal.Facts₀.slices_S256x128_S128x128_0_0⟩,
     ⟨Cert.KernelIdeal.S128x128, extractStridedSlice Cert.KernelIdeal.S128x128 ![128, 0] w Cert.KernelIdeal.Facts₀.slices_S256x128_S128x128_128_0⟩]
    Cert.KernelIdeal.Facts₀.concatenates_S128x128_S128x128_S128x256_d1

/-- The last layer on aggregated rows `u`: the product with the transposed weight, the bias on every row, and the
    clip at zero. -/
def outOf (u : (⟨Cert.ReferenceIdeal.S50000x128, .f32⟩ : BufTy).Contents (Elt Ideal))
    (w3 : (⟨Cert.ReferenceIdeal.S128x128, .f32⟩ : BufTy).Contents (Elt Ideal))
    (b : (⟨Cert.ReferenceIdeal.S128, .f32⟩ : BufTy).Contents (Elt Ideal)) :
    (⟨Cert.ReferenceIdeal.S50000x128, .f32⟩ : BufTy).Contents (Elt Ideal) :=
  maximumf (F := Ideal)
    (addf (F := Ideal) (Host.dotGeneral (F := Ideal) (φ₁ := .f32) (φ₂ := .f32) Cert.ReferenceIdeal.dot_S50000x128_S128x128_S50000x128_1_0_0_1_n_n none u
        (Cert.ReferenceIdeal.Read.val_main_v86 (F := Ideal) w3))
      (Cert.ReferenceIdeal.Read.val_main_v89 (F := Ideal) b))
    (Cert.ReferenceIdeal.Read.val_main_call0_v0 (F := Ideal))

end Cert.Bridge

end
-- ==== Proof.KernelRun.lean ====
/-
  The kernel program's run, read at ANY unscoped buffer at the end.

  @main is four segments: a stretch of host operations, the projection region, a second stretch of host operations
  and the last-layer region. The generated frame runs these segments and, at the end, reads back the six argument
  arrays. The same segments are run here, and the end is read in general: on every core every unscoped buffer holds
  the contents of the last segment boundary (`Gen.W4`: the last region's arrays at what its write-backs leave, every
  other buffer as that region found it). Whatever follows from those readings holds of every final memory
  (`run_reads`); the instance used by the value proof names the result array and the six arguments (`run`).
-/
import proofs.«178055_j16372415332361_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory is read as: on core `c`, every unscoped buffer at the last boundary's contents. -/
def EndsAt (c : Dev nD) (s : MemSt nD τ sig (Elt F)) : Prop :=
  ∀ b ∈ Pipeline.ucRefs τ sig, s.mem (((c : Thread nD τ)).1, b) = W4 m ρ c b

/-- The launch's ghost element is the pipelines' own initial one, and no core needs a ghost resource besides. -/
theorem launch_ghost :
    (ownU (initOf (Pipeline.cells cfgs cellOf_inj) (Pipeline.launchToks cfgs cellOf_inj)) : sProp 𝕄)
      ⊢ |={Set.univ}=> iprop(BI.own (emb₁ (initOf (Pipeline.cells (Pipeline.pin (pcfgs (F := F)) adm) cellOf_inj)
          (Pipeline.launchToks (Pipeline.pin (pcfgs (F := F)) adm) cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The last thread state, held beside a final state's interpretation, reads that state's memory at every unscoped
    buffer. -/
theorem last_read (c : Dev nD) (s' : Phys nD τ sig (Elt F)) :
    iprop(Tₙ m ρ c ∗ SI s') ⊢ |={Set.univ}=> iprop(⌜EndsAt m ρ c s'.mem⌝ ∗ SI s') := by
  iintro ⟨⟨Hh, -⟩, HSI⟩
  unfold StableHlo.held EndsAt
  imodintro
  iapply (pointsTo_read_all (Pipeline.ucRefs τ sig) (fun b => (((c : Thread nD τ)).1, b)) (W4 m ρ c) s')
  isplitl [Hh] <;> iassumption

-- the library's launch theorem finds its implicit arguments by unifying its conclusion with this statement, which
-- takes unfolding plain definitions in a metavariable's type
set_option backward.isDefEq.respectTransparency.types false in
/-- Every weakly fair execution of @main terminates, nothing faulting, and every final memory has whatever follows
    from "every core's unscoped buffers hold the last boundary's contents". -/
theorem run_reads {Q : PUnit × MemSt nD τ sig (Elt F) → Prop}
    (hQ : ∀ s : MemSt nD τ sig (Elt F), (∀ c : Dev nD, EndsAt m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c K => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := EndsAt m ρ)
    (hfin := last_read m ρ)
    (hQ := hQ)

/-- The instance the value proof uses: the result array at the last boundary's contents, every argument as launched. -/
theorem run : θ_run defs (onTc (τ := τ) (main (F := F))) ⟨m, fun _ => 0, ρ⟩ (fun r => ∀ c : Dev nD,
      r.2.mem ((c.tc : Thread nD τ).loc main_v83) = W4 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_reads m ρ fun s h c =>
    ⟨h c _ (mem_uc main_v83 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩

end Cert.KernelIdeal.RunValue

end
-- ==== Proof.LibRowScatter.lean ====
/-
Row gather and row scatter-add of a matrix, read at an index.

`x[idx]` on the rows of a matrix `x : [N, C]` at an integer vector `idx : [E]` is a `stablehlo.gather` with offset_dims
`[1]`, collapsed_slice_dims `[0]`, start_index_map `[0]`, index_vector_dim 1 and slice_sizes `[1, C]` over the indices as
`[E, 1]`; a segment sum of `data : [E, C]` by `ids : [E]` into `N` rows is a `stablehlo.scatter` with an add body,
update_window_dims `[1]`, inserted_window_dims `[0]`, scatter_dims_to_operand_dims `[0]` and index_vector_dim 1 over the
ids as `[E, 1]`. This file gives each of the two, at the extended reals for the scatter, in closed form at an index.
-/
import Idealize.ShloMosaic.Lib.ValueIdx
import Idealize.ShloMosaic.PureOps.Ideal

noncomputable section

open scoped BigOperators

namespace Idealize.ShloMosaic.RowScatter

open Idealize.ShloMosaic Idealize.ShloMosaic.ValueIdx

/-! ## Row gather -/

section Gather
variable {α : Type}

/-- The dimension numbers of a row gather for an operand `[N, C]`, start indices `[E, 1]` and result `[E, C]`: the
    row axis is collapsed and indexed, the column axis is the one offset axis, a slice is one whole row. Their
    conditions `wf` are a parameter, so that any record with these fields is an instance whatever its proof. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]`, and
    at the result's own column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the row axis: collapsed, so no offset; not a batching axis; its start is the clamped index
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: not indexed, so its start is 0; not a batching axis; its offset is the result's column
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show ¬ (1 : Fin 2) ∈ (rowGatherDims N E C wf).startIndexMap from
        fun h => absurd (List.mem_singleton.mp h) (show ¬ (1 : Fin 2) = 0 by decide))]
    have hk : (1 : Fin 2) ∈ (rowGatherDims N E C wf).sKept :=
      (GatherDims.mem_sKept _ _).mpr ⟨fun h => absurd (List.mem_singleton.mp h) (show ¬ (1 : Fin 2) = 0 by decide), List.not_mem_nil⟩
    have hoff : (rowGatherDims N E C wf).offCoord (ix2 e c) 1 = c.val := by
      unfold GatherDims.offCoord
      rw [dif_pos hk]
      rfl
    rw [hst, hoff]
    simp only [Nat.add_zero, Nat.zero_add]

end Gather

/-! ## Row scatter-add -/

section Scatter

/-- The dimension numbers of a row scatter for an operand `[N, C]`, scatter indices `[E, 1]` and updates `[E, C]`: the
    row axis is the inserted, indexed one, the column axis is the one window axis, an update is one whole row. Their
    conditions `wf` are a parameter, so that any record with these fields is an instance whatever its proof. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update row's id `idx[j₀, 0]`, read signed and not clamped. -/
theorem rowScatter_start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no scatter index names, the window starts at 0. -/
theorem rowScatter_start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    fun h => absurd (List.mem_singleton.mp h) (show ¬ (1 : Fin 2) = 0 by decide))]

/-- The row axis is inserted: the window has no extent there. -/
theorem rowScatter_window_row (j : (⟨2, ![E, C]⟩ : Shape).Idx) : (rowScatterDims N E C wf).window j 0 = 0 := by
  unfold ScatterDims.window
  rw [dif_neg]
  intro h
  have h' : (0 : Fin 2) ∉ ([0] : List (Fin 2)) := by
    simpa [ScatterDims.sKept, Shape.kept, List.mem_filter] using h
  exact h' (List.mem_singleton.mpr rfl)

/-- On the column axis the window coordinate is the update's own column. -/
theorem rowScatter_window_col (j : (⟨2, ![E, C]⟩ : Shape).Idx) : (rowScatterDims N E C wf).window j 1 = (j 1).val := by
  unfold ScatterDims.window
  have hk : (1 : Fin 2) ∈ (rowScatterDims N E C wf).sKept := by
    simp [ScatterDims.sKept, Shape.kept, List.mem_filter]
  rw [dif_pos hk]
  rfl

/-- WHERE AN UPDATE ELEMENT LANDS: update `(j₀, j₁)` lands on operand element `(n, c)` exactly when its row's id, read
    signed, is `n` and its column is `c`; an id outside `[0, N)` lands nowhere. -/
theorem rowScatter_resultIdx_iff (idx : IVec ⟨2, ![E, 1]⟩ w) (j : (⟨2, ![E, C]⟩ : Shape).Idx) (n : Fin N) (c : Fin C) :
    (rowScatterDims N E C wf).resultIdx? j idx = some (ix2 n c)
      ↔ (idx (ix2 (j 0) (0 : Fin 1))).toInt = (n.val : Int) ∧ j 1 = c := by
  unfold ScatterDims.resultIdx?
  constructor
  · intro h
    split at h
    · have hf := Option.some.inj h
      have h0 := congrArg Fin.val (congrFun hf 0)
      have h1 := congrArg Fin.val (congrFun hf 1)
      rename_i hall
      have ha0 := hall 0
      have ha1 := hall 1
      simp only [rowScatter_start_row, rowScatter_start_col, rowScatter_window_row, rowScatter_window_col] at h0 h1 ha0 ha1
      refine ⟨?_, Fin.ext ?_⟩
      · change ((idx (ix2 (j 0) (0 : Fin 1))).toInt + ((0 : Nat) : Int)).toNat = n.val at h0
        omega
      · change ((0 : Int) + ((j 1).val : Int)).toNat = c.val at h1
        omega
    · cases h
  · rintro ⟨h0, h1⟩
    have hall : ∀ a : Fin 2, 0 ≤ (rowScatterDims N E C wf).start j idx a + (rowScatterDims N E C wf).window j a
        ∧ (rowScatterDims N E C wf).start j idx a + (rowScatterDims N E C wf).window j a
          < (⟨2, ![N, C]⟩ : Shape).size a := by
      intro a
      match a with
      | ⟨0, _⟩ =>
        show 0 ≤ (rowScatterDims N E C wf).start j idx 0 + (rowScatterDims N E C wf).window j 0
          ∧ (rowScatterDims N E C wf).start j idx 0 + (rowScatterDims N E C wf).window j 0 < (N : Int)
        rw [rowScatter_start_row, rowScatter_window_row, h0]
        have := n.isLt
        omega
      | ⟨1, _⟩ =>
        show 0 ≤ (rowScatterDims N E C wf).start j idx 1 + (rowScatterDims N E C wf).window j 1
          ∧ (rowScatterDims N E C wf).start j idx 1 + (rowScatterDims N E C wf).window j 1 < (C : Int)
        rw [rowScatter_start_col, rowScatter_window_col]
        have := idx2_lt1 j
        omega
    rw [dif_pos hall]
    congr 1
    funext a
    refine Fin.ext ?_
    match a with
    | ⟨0, _⟩ =>
      show ((rowScatterDims N E C wf).start j idx 0 + (rowScatterDims N E C wf).window j 0).toNat = n.val
      rw [rowScatter_start_row, rowScatter_window_row, h0]
      omega
    | ⟨1, _⟩ =>
      show ((rowScatterDims N E C wf).start j idx 1 + (rowScatterDims N E C wf).window j 1).toNat = c.val
      rw [rowScatter_start_col, rowScatter_window_col, ← h1]
      omega

/-- THE ROW SCATTER-ADD READ AT `(n, c)`: the operand element plus the sum, over the update rows `e` whose id
    `idx[e, 0]`, read signed and not clamped, is `n`, of the update at `(e, c)`. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  have hterm : ∀ c' : Fin C,
      (if (rowScatterDims N E C wf).resultIdx? (ix2 e c') idx = some (ix2 n c) then upd (ix2 e c') else 0)
        = if c' = c then (if (idx (ix2 e (0 : Fin 1))).toInt = (n.val : Int) then upd (ix2 e c) else 0) else 0 := by
    intro c'
    have hiff := rowScatter_resultIdx_iff wf idx (ix2 e c') n c
    change _ ↔ (idx (ix2 e (0 : Fin 1))).toInt = (n.val : Int) ∧ c' = c at hiff
    by_cases hc : c' = c
    · subst hc
      rw [if_pos rfl]
      exact if_congr (hiff.trans (and_iff_left rfl)) rfl rfl
    · rw [if_neg hc, if_neg (fun h => hc (hiff.mp h).2)]
  rw [Finset.sum_congr rfl (fun c' _ => hterm c'), Finset.sum_ite_eq' Finset.univ c]
  rw [if_pos (Finset.mem_univ c)]

end Scatter

/-! ## A sum over `Fin (E + E)` in two halves -/

/-- A sum over `Fin (E + E)` is the sum over the first `E` indices plus the sum over the last `E` (Mathlib's
    `Fin.sum_univ_add` at equal halves). -/
theorem sum_fin_add_self {M : Type*} [AddCommMonoid M] (E : Nat) (f : Fin (E + E) → M) :
    ∑ e, f e = ∑ e : Fin E, f (Fin.castAdd E e) + ∑ e : Fin E, f (Fin.natAdd E e) :=
  Fin.sum_univ_add f

end Idealize.ShloMosaic.RowScatter

end
-- ==== Proof.LibGatherConcat.lean ====
/-
Row gather of two matrices laid side by side.

Let `a : [N, C]` and `b : [N, D]` be joined along the columns into `[N, T]` with `T = C + D`, and let the rows of the
joined matrix be gathered at an index vector (jnp `x[idx]`, the row read signed and clamped). Then the left `C`
columns of the gathered rows are the gathered rows of `a`, and the columns from `C` on are the gathered rows of `b`:
gathering rows commutes with slicing columns, because the row chosen for an output row does not depend on the column.
-/
import Idealize.ShloMosaic.Lib.Pipeline.Value
import Idealize.ShloMosaic.Lib.ValueIdx
import proofs.«178055_j16372415332361_2_alg».proof.Proof.LibRowScatter

noncomputable section

namespace Idealize.ShloMosaic.RowScatter

open Idealize.ShloMosaic Idealize.ShloMosaic.ValueIdx

variable {α : Type} {N E C D T w : Nat}

/-- The left `C` columns of the rows gathered from `[a | b]` are the rows gathered from `a`. -/
theorem slice_left_gather_concat (hN : 0 < N) (hCT : C ≤ T)
    (wfT : GatherDims.WF ⟨2, ![N, T]⟩ ⟨2, ![E, 1]⟩ ⟨2, ![E, T]⟩ [1] [0] [] [0] [] 1 ![1, T])
    (wfC : GatherDims.WF ⟨2, ![N, C]⟩ ⟨2, ![E, 1]⟩ ⟨2, ![E, C]⟩ [1] [0] [] [0] [] 1 ![1, C])
    (hcat : Shape.Concatenates [(⟨2, ![N, C]⟩ : Shape), ⟨2, ![N, D]⟩] ⟨2, ![N, T]⟩ 1)
    (hsl : (⟨2, ![E, T]⟩ : Shape).Slices ![0, 0] ⟨2, ![E, C]⟩)
    (a : (⟨2, ![N, C]⟩ : Shape).Idx → α) (b : (⟨2, ![N, D]⟩ : Shape).Idx → α) (idx : IVec ⟨2, ![E, 1]⟩ w) :
    extractStridedSlice ⟨2, ![E, C]⟩ ![0, 0]
        (Host.gather (rowGatherDims N E T wfT) (concatenate ⟨2, ![N, T]⟩ 1 [⟨⟨2, ![N, C]⟩, a⟩, ⟨⟨2, ![N, D]⟩, b⟩] hcat) idx) hsl
      = Host.gather (rowGatherDims N E C wfC) a idx := by
  funext j
  obtain ⟨e, q, rfl⟩ : ∃ (e : Fin E) (q : Fin C), j = ix2 e q := ⟨j 0, j 1, eq_ix2 j⟩
  have hc : q.val < T := lt_of_lt_of_le q.isLt hCT
  rw [extractStridedSlice_apply ![0, 0] _ hsl (ix2 e q) (ix2 e (⟨q.val, hc⟩ : Fin T)) (fun d => match d with
    | ⟨0, _⟩ => by show e.val = 0 + e.val; omega
    | ⟨1, _⟩ => by show q.val = 0 + q.val; omega)]
  rw [rowGather_apply hN wfT _ idx e (⟨q.val, hc⟩ : Fin T), rowGather_apply hN wfC a idx e q]
  exact concatenate_pair_apply_left 1 a b hcat _ rfl _ (fun d => match d with
    | ⟨0, _⟩ => rfl
    | ⟨1, _⟩ => rfl)

/-- The columns from `C` on of the rows gathered from `[a | b]` are the rows gathered from `b`. -/
theorem slice_right_gather_concat (hN : 0 < N) (hT : C + D = T)
    (wfT : GatherDims.WF ⟨2, ![N, T]⟩ ⟨2, ![E, 1]⟩ ⟨2, ![E, T]⟩ [1] [0] [] [0] [] 1 ![1, T])
    (wfD : GatherDims.WF ⟨2, ![N, D]⟩ ⟨2, ![E, 1]⟩ ⟨2, ![E, D]⟩ [1] [0] [] [0] [] 1 ![1, D])
    (hcat : Shape.Concatenates [(⟨2, ![N, C]⟩ : Shape), ⟨2, ![N, D]⟩] ⟨2, ![N, T]⟩ 1)
    (hsl : (⟨2, ![E, T]⟩ : Shape).Slices ![0, C] ⟨2, ![E, D]⟩)
    (a : (⟨2, ![N, C]⟩ : Shape).Idx → α) (b : (⟨2, ![N, D]⟩ : Shape).Idx → α) (idx : IVec ⟨2, ![E, 1]⟩ w) :
    extractStridedSlice ⟨2, ![E, D]⟩ ![0, C]
        (Host.gather (rowGatherDims N E T wfT) (concatenate ⟨2, ![N, T]⟩ 1 [⟨⟨2, ![N, C]⟩, a⟩, ⟨⟨2, ![N, D]⟩, b⟩] hcat) idx) hsl
      = Host.gather (rowGatherDims N E D wfD) b idx := by
  funext j
  obtain ⟨e, q, rfl⟩ : ∃ (e : Fin E) (q : Fin D), j = ix2 e q := ⟨j 0, j 1, eq_ix2 j⟩
  have hc : C + q.val < T := by have := q.isLt; omega
  rw [extractStridedSlice_apply ![0, C] _ hsl (ix2 e q) (ix2 e (⟨C + q.val, hc⟩ : Fin T)) (fun d => match d with
    | ⟨0, _⟩ => by show e.val = 0 + e.val; omega
    | ⟨1, _⟩ => by show C + q.val = C + q.val; rfl)]
  rw [rowGather_apply hN wfT _ idx e (⟨C + q.val, hc⟩ : Fin T), rowGather_apply hN wfD b idx e q]
  exact concatenate_pair_apply_right 1 a b hcat _ rfl rfl _ (fun d hd => match d, hd with
    | ⟨0, _⟩, _ => rfl
    | ⟨1, _⟩, hd => absurd rfl hd)
    (by show q.val + C = C + q.val; omega)

end Idealize.ShloMosaic.RowScatter

end
-- ==== Proof.HostChain.lean ====
/-
  The host operations of the kernel's program, read at the buffers the two regions take.

  Before the first region the host lays the gate weight's halves side by side (`wcat`), builds the edge lists with the
  self loops appended and the normalised edge weights; none of this differs from the reference's own first
  operations, so each of these buffers holds the reference's corresponding stage of the same arguments. Between the
  regions the host gathers, gates, scatters and re-gathers rows; the kernel gathers `[xb | x]` once and slices the
  result where the reference gathers `xb` and `x` separately — the same rows, because a row gather commutes with a
  column slice — so the rows the last region is given are the reference's aggregated rows.
-/
import proofs.«178055_j16372415332361_2_alg».proof.Proof.Gen.KernelIdeal.Frame
import proofs.«178055_j16372415332361_2_alg».proof.Proof.Gen.ReferenceIdeal.Read
import proofs.«178055_j16372415332361_2_alg».proof.Proof.Spec
import proofs.«178055_j16372415332361_2_alg».proof.Proof.LibGatherConcat
import Idealize.ShloMosaic.Lib.StableHlo.Run

set_option maxRecDepth 16384

noncomputable section

namespace Cert.Bridge.Host

open Cert.KernelIdeal Cert.KernelIdeal.Gen
open Idealize.ShloMosaic Idealize.ShloMosaic.TcCoe Idealize.SL.Sem Idealize.ShloMosaic.StableHlo
open Cert.ReferenceIdeal.Read (val_main_v5 val_main_v6 val_main_v35 val_main_v38 val_main_v39 val_main_v85 val_main_v86)

variable (m : (ℓ : Loc nD τ sig) → Buf (Elt Ideal) ℓ) (ρ : Dev nD → PrngReg) (c : Dev nD)

/-! ## Before the first region -/

set_option maxHeartbeats 4000000 in
/-- The first region's weight operand is the gate weight's two halves side by side. -/
theorem W1_v38 : W1 m ρ c (Proc.devRef .tc main_v38) = Cert.Bridge.wcat (m ((c : Thread nD τ).loc main_arg2)) := by
  show StableHlo.after hostOps0 (W0 m ρ c) (Proc.devRef .tc main_v38) = _
  after_results_simp <;> rfl

set_option maxHeartbeats 4000000 in
/-- No host operation writes the node features. -/
theorem W1_arg0 : W1 m ρ c (Proc.devRef .tc main_arg0) = m ((c : Thread nD τ).loc main_arg0) := by
  show StableHlo.after hostOps0 (W0 m ρ c) (Proc.devRef .tc main_arg0) = _
  after_results_simp <;> rfl

set_option maxHeartbeats 4000000 in
/-- The source list with the self loops appended. -/
theorem W1_v5 : W1 m ρ c (Proc.devRef .tc main_v5) = val_main_v5 (F := Ideal) (m ((c : Thread nD τ).loc main_arg5)) := by
  show StableHlo.after hostOps0 (W0 m ρ c) (Proc.devRef .tc main_v5) = _
  after_results_simp <;> rfl

set_option maxHeartbeats 4000000 in
/-- The destination list with the self loops appended. -/
theorem W1_v6 : W1 m ρ c (Proc.devRef .tc main_v6) = val_main_v6 (F := Ideal) (m ((c : Thread nD τ).loc main_arg5)) := by
  show StableHlo.after hostOps0 (W0 m ρ c) (Proc.devRef .tc main_v6) = _
  after_results_simp <;> rfl

set_option maxHeartbeats 4000000 in
/-- The edge weights divided by the root of the two endpoints' weighted degrees. -/
theorem W1_v35 : W1 m ρ c (Proc.devRef .tc main_v35)
    = val_main_v35 (F := Ideal) (m ((c : Thread nD τ).loc main_arg1)) (m ((c : Thread nD τ).loc main_arg5)) := by
  show StableHlo.after hostOps0 (W0 m ρ c) (Proc.devRef .tc main_v35) = _
  after_results_simp <;> rfl

/-! ## Between the regions: what the first region leaves untouched -/

theorem W2_v5 : W2 m ρ c (Proc.devRef .tc main_v5) = val_main_v5 (F := Ideal) (m ((c : Thread nD τ).loc main_arg5)) :=
  (W2_of_ne m ρ c main_v5 (by decide)).trans (W1_v5 m ρ c)
theorem W2_v6 : W2 m ρ c (Proc.devRef .tc main_v6) = val_main_v6 (F := Ideal) (m ((c : Thread nD τ).loc main_arg5)) :=
  (W2_of_ne m ρ c main_v6 (by decide)).trans (W1_v6 m ρ c)
theorem W2_v35 : W2 m ρ c (Proc.devRef .tc main_v35)
    = val_main_v35 (F := Ideal) (m ((c : Thread nD τ).loc main_arg1)) (m ((c : Thread nD τ).loc main_arg5)) :=
  (W2_of_ne m ρ c main_v35 (by decide)).trans (W1_v35 m ρ c)
/-- The node features are an input of the first region: it leaves them as it found them. -/
theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)

set_option maxHeartbeats 4000000 in
theorem W1_arg3 : W1 m ρ c (Proc.devRef .tc main_arg3) = m ((c : Thread nD τ).loc main_arg3) := by
  show StableHlo.after hostOps0 (W0 m ρ c) (Proc.devRef .tc main_arg3) = _
  after_results_simp <;> rfl
set_option maxHeartbeats 4000000 in
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)

/-! ## What the last region is given -/

set_option maxHeartbeats 4000000 in
/-- The last layer's weight, transposed. -/
theorem V3_v82 : V3 m ρ c main_v82 = val_main_v86 (F := Ideal) (m ((c : Thread nD τ).loc main_arg3)) := by
  show StableHlo.after hostOps1 (W2 m ρ c) (Proc.devRef .tc main_v82) = _
  after_results_simp
  rw [W2_arg3]
  rfl

set_option maxHeartbeats 4000000 in
/-- The bias. -/
theorem V3_arg4 : V3 m ρ c main_arg4 = m ((c : Thread nD τ).loc main_arg4) := by
  show StableHlo.after hostOps1 (W2 m ρ c) (Proc.devRef .tc main_arg4) = _
  after_results_simp
  exact W2_arg4 m ρ c

/-! ## The rows the last region is given -/

/-- The left half of the rows gathered from `[xb | x]` is the rows gathered from `xb`. -/
theorem slice_gather_left (a b : (⟨S50000x128, .f32⟩ : BufTy).Contents (Elt Ideal)) (idx : (⟨S850000x1, .i32⟩ : BufTy).Contents (Elt Ideal)) :
    extractStridedSlice S850000x128 ![0, 0]
        (Host.gather gather_S50000x256_S850000x1_S850000x256_1_0_n_n_0_1_1256
          (concatenate S50000x256 1 [⟨S50000x128, a⟩, ⟨S50000x128, b⟩] Facts₀.concatenates_S50000x128_S50000x128_S50000x256_d1) idx)
        Facts₀.slices_S850000x256_S850000x128_0_0
      = Host.gather gather_S50000x128_S850000x1_S850000x128_1_0_n_n_0_1_1128 a idx :=
  Idealize.ShloMosaic.RowScatter.slice_left_gather_concat (N := 50000) (E := 850000) (C := 128) (D := 128) (T := 256)
    (by decide) (by decide) _ _ _ _ a b idx

/-- The right half of the rows gathered from `[xb | x]` is the rows gathered from `x`. -/
theorem slice_gather_right (a b : (⟨S50000x128, .f32⟩ : BufTy).Contents (Elt Ideal)) (idx : (⟨S850000x1, .i32⟩ : BufTy).Contents (Elt Ideal)) :
    extractStridedSlice S850000x128 ![0, 128]
        (Host.gather gather_S50000x256_S850000x1_S850000x256_1_0_n_n_0_1_1256
          (concatenate S50000x256 1 [⟨S50000x128, a⟩, ⟨S50000x128, b⟩] Facts₀.concatenates_S50000x128_S50000x128_S50000x256_d1) idx)
        Facts₀.slices_S850000x256_S850000x128_0_128
      = Host.gather gather_S50000x128_S850000x1_S850000x128_1_0_n_n_0_1_1128 b idx :=
  Idealize.ShloMosaic.RowScatter.slice_right_gather_concat (N := 50000) (E := 850000) (C := 128) (D := 128) (T := 256)
    (by decide) (by decide) _ _ _ _ a b idx

set_option maxHeartbeats 8000000 in
/-- Given the two projections the first region leaves, the rows handed to the last region are the reference's
    aggregated rows: gather, gate, scatter-add onto the features, re-gather, weigh, scatter-add. -/
theorem V3_v81
    (hxa : W2 m ρ c (Proc.devRef .tc main_v39_0)
      = val_main_v38 (F := Ideal) (m ((c : Thread nD τ).loc main_arg0)) (m ((c : Thread nD τ).loc main_arg2)))
    (hxb : W2 m ρ c (Proc.devRef .tc main_v39_1)
      = val_main_v39 (F := Ideal) (m ((c : Thread nD τ).loc main_arg0)) (m ((c : Thread nD τ).loc main_arg2))) :
    V3 m ρ c main_v81 = val_main_v85 (F := Ideal) (m ((c : Thread nD τ).loc main_arg0)) (m ((c : Thread nD τ).loc main_arg1))
      (m ((c : Thread nD τ).loc main_arg2)) (m ((c : Thread nD τ).loc main_arg5)) := by
  show StableHlo.after hostOps1 (W2 m ρ c) (Proc.devRef .tc main_v81) = _
  after_results_simp
  rw [hxa, hxb, W2_arg0, W2_v5, W2_v6, W2_v35]
  rw [slice_gather_left, slice_gather_right]
  rfl

end Cert.Bridge.Host

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.ProjValue.lean ====
/-
  What the projection region leaves in its two output arrays.

  The region runs over 10 grid points. At point t it reads rows 5000·t … 5000·t + 4999 of x : [50000, 128] and the
  whole weight wc : [128, 256], forms the [5000, 256] product of the block with the weight — entry (p, j) is the sum
  over k of block[p, k] · wc[k, j]: at the ideal values a change of format is the identity and a product into a zero
  accumulator is the plain sum — and stores columns 0 … 127 of the product into block t of the first output array
  and columns 128 … 255 into block t of the second. The ten blocks tile the 50000 rows, so each output array ends
  holding ONE function of x and wc, whatever contents the region finds:

  * `projL x wc` at (r, j) is ∑ k, x[r, k] · wc[k, j],
  * `projR x wc` at (r, j) is ∑ k, x[r, k] · wc[k, 128 + j].

  When wc is `wcat w`, the two halves of w : [256, 128] side by side, wc[k, j] = w[k, j] and
  wc[k, 128 + j] = w[128 + k, j], so the two arrays are the reference's products x · w[0:128] and x · w[128:256],
  term by term under the sum. No algebraic law is used and nothing is asked of the values (no finiteness).
-/
import proofs.«178055_j16372415332361_2_alg».proof.Proof.Gen.KernelIdeal.Frame
import proofs.«178055_j16372415332361_2_alg».proof.Proof.Spec
import proofs.«178055_j16372415332361_2_alg».proof.Proof.LibMatmulSum
import Idealize.ShloMosaic.Lib.Pipeline.Value
import Idealize.ShloMosaic.Lib.ValueIdx
import Idealize.ShloMosaic.PureOps.Ideal.Laws

noncomputable section

namespace Cert.Bridge.Proj

open Idealize.ShloMosaic Idealize.ShloMosaic.TcCoe Idealize.ShloMosaic.ValueIdx Cert.KernelIdeal Cert.KernelIdeal.Gen
open Idealize.ShloMosaic.Pipeline (Dat)

/-! ## The kernel's product record, coordinate by coordinate -/

theorem klhs0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem klhs1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem krhs0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem krhs1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The block product at an entry: row p of the block times column q of the weight. -/
theorem prod_apply (x0 : Vec Ideal S5000x128 .f32) (x1 : Vec Ideal S128x256 .f32) (p : Fin 5000) (q : Fin 256) :
    k0_pay1 (F := Ideal) x0 x1 (ix2 p q) = ∑ k : Fin 128, x0 (ix2 p k) * x1 (ix2 k q) := by
  unfold k0_pay1
  rw [shapeCast_self]
  exact Cert.GraphConv.matmul_zero_sum dot_S5000x128_S128x256_S5000x256_1_0_0_1_n_n none rfl rfl klhs0 klhs1 krhs0 krhs1 _ _ (ix2 p q)

/-! ## The two output payloads at an entry -/

/-- Column q of the left half is column q of the product. -/
abbrev colL (q : Fin 128) : Fin 256 := ⟨q.val, by have := q.isLt; omega⟩
/-- Column q of the right half is column 128 + q of the product. -/
abbrev colR (q : Fin 128) : Fin 256 := ⟨128 + q.val, by have := q.isLt; omega⟩

/-- The slice of columns 0 … 127 of a 5000-by-256 array, at an entry. -/
theorem sliceL_apply (z : FVec Ideal S5000x256 .f32) (p : Fin 5000) (q : Fin 128) :
    extractStridedSlice S5000x128 ![0, 0] z slices_S5000x256_o0_0_S5000x128 (ix2 p q) = z (ix2 p (colL q)) :=
  extractStridedSlice_apply ![0, 0] z slices_S5000x256_o0_0_S5000x128 (ix2 p q) (ix2 p (colL q)) (fun a => by
    match a with
    | ⟨0, _⟩ => show p.val = 0 + p.val; omega
    | ⟨1, _⟩ => show q.val = 0 + q.val; omega)

/-- The slice of columns 128 … 255 of a 5000-by-256 array, at an entry. -/
theorem sliceR_apply (z : FVec Ideal S5000x256 .f32) (p : Fin 5000) (q : Fin 128) :
    extractStridedSlice S5000x128 ![0, 128] z slices_S5000x256_o0_128_S5000x128 (ix2 p q) = z (ix2 p (colR q)) :=
  extractStridedSlice_apply ![0, 128] z slices_S5000x256_o0_128_S5000x128 (ix2 p q) (ix2 p (colR q)) (fun a => by
    match a with
    | ⟨0, _⟩ => show p.val = 0 + p.val; omega
    | ⟨1, _⟩ => show 128 + q.val = 128 + q.val; omega)

/-- The first store's payload: the left half of the block product. -/
theorem payL_apply (x0 : Vec Ideal S5000x128 .f32) (x1 : Vec Ideal S128x256 .f32) (p : Fin 5000) (q : Fin 128) :
    k0_pay2 (F := Ideal) x0 x1 (ix2 p q) = ∑ k : Fin 128, x0 (ix2 p k) * x1 (ix2 k (colL q)) := by
  unfold k0_pay2
  exact (sliceL_apply (k0_pay1 (F := Ideal) x0 x1) p q).trans (prod_apply x0 x1 p (colL q))

/-- The second store's payload: the right half of the block product. -/
theorem payR_apply (x0 : Vec Ideal S5000x128 .f32) (x1 : Vec Ideal S128x256 .f32) (p : Fin 5000) (q : Fin 128) :
    k0_pay3 (F := Ideal) x0 x1 (ix2 p q) = ∑ k : Fin 128, x0 (ix2 p k) * x1 (ix2 k (colR q)) := by
  unfold k0_pay3
  exact (sliceR_apply (k0_pay1 (F := Ideal) x0 x1) p q).trans (prod_apply x0 x1 p (colR q))

/-! ## The whole-array functions -/

/-- Row of an array index, as a literal-size coordinate. -/
abbrev rowOf (i : S50000x128.Idx) : Fin 50000 := ⟨(i 0).val, (i 0).isLt⟩
/-- Column of an array index, as a literal-size coordinate. -/
abbrev colOf (i : S50000x128.Idx) : Fin 128 := ⟨(i 1).val, (i 1).isLt⟩

/-- The left half of x · wc: entry (r, j) is the sum over k of x[r, k] · wc[k, j]. -/
def projL (x : Vec Ideal S50000x128 .f32) (wc : Vec Ideal S128x256 .f32) : Vec Ideal S50000x128 .f32 :=
  fun i => ∑ k : Fin 128, x (ix2 (rowOf i) k) * wc (ix2 k (colL (colOf i)))

/-- The right half of x · wc: entry (r, j) is the sum over k of x[r, k] · wc[k, 128 + j]. -/
def projR (x : Vec Ideal S50000x128 .f32) (wc : Vec Ideal S128x256 .f32) : Vec Ideal S50000x128 .f32 :=
  fun i => ∑ k : Fin 128, x (ix2 (rowOf i) k) * wc (ix2 k (colR (colOf i)))

/-- A block whose rows are rows n·5000 … n·5000 + 4999 of x, multiplied by the whole weight: the left payload at
    an entry of the block is the left half of x · wc at the entry's place in the array. -/
theorem blockL_eq (x : Vec Ideal S50000x128 .f32) (wc : Vec Ideal S128x256 .f32)
    (b0 : Vec Ideal S5000x128 .f32) (b1 : Vec Ideal S128x256 .f32) (n : Nat)
    (h0 : ∀ (y : S5000x128.Idx) (i : S50000x128.Idx), (i 0).val = n * 5000 + (y 0).val → (i 1).val = (y 1).val → b0 y = x i)
    (h1 : ∀ y : S128x256.Idx, b1 y = wc y)
    (y : S5000x128.Idx) (i : S50000x128.Idx) (hi0 : (i 0).val = n * 5000 + (y 0).val) (hi1 : (i 1).val = (y 1).val) :
    k0_pay2 (F := Ideal) b0 b1 y = projL x wc i := by
  obtain ⟨p, q, rfl⟩ : ∃ (p : Fin 5000) (q : Fin 128), y = ix2 p q := ⟨y 0, y 1, eq_ix2 y⟩
  rw [payL_apply]
  unfold projL
  refine Finset.sum_congr rfl fun k _ => ?_
  have hq : colOf i = q := Fin.ext hi1
  rw [h0 (ix2 p k) (ix2 (rowOf i) k) hi0 rfl, h1, hq]

/-- The same for the right payload and the right half. -/
theorem blockR_eq (x : Vec Ideal S50000x128 .f32) (wc : Vec Ideal S128x256 .f32)
    (b0 : Vec Ideal S5000x128 .f32) (b1 : Vec Ideal S128x256 .f32) (n : Nat)
    (h0 : ∀ (y : S5000x128.Idx) (i : S50000x128.Idx), (i 0).val = n * 5000 + (y 0).val → (i 1).val = (y 1).val → b0 y = x i)
    (h1 : ∀ y : S128x256.Idx, b1 y = wc y)
    (y : S5000x128.Idx) (i : S50000x128.Idx) (hi0 : (i 0).val = n * 5000 + (y 0).val) (hi1 : (i 1).val = (y 1).val) :
    k0_pay3 (F := Ideal) b0 b1 y = projR x wc i := by
  obtain ⟨p, q, rfl⟩ : ∃ (p : Fin 5000) (q : Fin 128), y = ix2 p q := ⟨y 0, y 1, eq_ix2 y⟩
  rw [payR_apply]
  unfold projR
  refine Finset.sum_congr rfl fun k _ => ?_
  have hq : colOf i = q := Fin.ext hi1
  rw [h0 (ix2 p k) (ix2 (rowOf i) k) hi0 rfl, h1, hq]

/-! ## From the blocks to the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: at point t the input block and both output blocks are block t
    of their arrays' rows, and the weight's block is the whole weight. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The input block at point t is rows t·5000 … t·5000 + 4999 of x. -/
theorem read_x (c : Dev nD) (t : Fin cfg0.N) (y : S5000x128.Idx) (i : S50000x128.Idx)
    (hi0 : (i 0).val = t.val * 5000 + (y 0).val) (hi1 : (i 1).val = (y 1).val) :
    iblk0 (F := Ideal) V c 0 t y = V c main_arg0 i := by
  obtain ⟨e0, e1, -⟩ := block_indices t
  show V c main_arg0 (((cfg0.win 0).blk t).view.emb y) = V c main_arg0 i
  have h : ((cfg0.win 0).blk t).view.emb y = i := by
    funext a; apply Fin.ext
    match a with
    | ⟨0, _⟩ => show win0_0.index t (0 : Fin 2) * 5000 + 1 * (y 0).val = (i 0).val; omega
    | ⟨1, _⟩ => show win0_0.index t (1 : Fin 2) * 128 + 1 * (y 1).val = (i 1).val; omega
  rw [h]

/-- The weight's block at every point is the whole weight. -/
theorem read_w (c : Dev nD) (t : Fin cfg0.N) (y : S128x256.Idx) :
    iblk0 (F := Ideal) V c 1 t y = V c main_v38 y := by
  obtain ⟨-, -, e0, e1, -⟩ := block_indices t
  show V c main_v38 (((cfg0.win 1).blk t).view.emb y) = V c main_v38 y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 256 + 1 * (y 1).val = (y 1).val; omega
  rw [h]

/-- What point t writes back to the first output array is block t of the left half of x · wc. -/
theorem flushedL (c : Dev nD) (t : Fin cfg0.N) :
    (dat0 (F := Ideal) V c).flushed 2 t
      = ((cfg0.win 2).blk t).view.read (Elt Ideal) (projL (V c main_arg0) (V c main_v38)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x256) zero_offsets]
  obtain ⟨-, -, -, -, e0, e1, -⟩ := block_indices t
  funext j
  refine blockL_eq (V c main_arg0) (V c main_v38) (iblk0 (F := Ideal) V c 0 t) (iblk0 (F := Ideal) V c 1 t) t.val
    (read_x V c t) (read_w V c t) j (((cfg0.win 2).blk t).view.emb j) ?_ ?_
  · show win0_2.index t (0 : Fin 2) * 5000 + 1 * (j 0).val = t.val * 5000 + (j 0).val; omega
  · show win0_2.index t (1 : Fin 2) * 128 + 1 * (j 1).val = (j 1).val; omega

/-- What point t writes back to the second output array is block t of the right half of x · wc. -/
theorem flushedR (c : Dev nD) (t : Fin cfg0.N) :
    (dat0 (F := Ideal) V c).flushed 3 t
      = ((cfg0.win 3).blk t).view.read (Elt Ideal) (projR (V c main_arg0) (V c main_v38)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x256) zero_offsets]
  obtain ⟨-, -, -, -, -, -, e0, e1⟩ := block_indices t
  funext j
  refine blockR_eq (V c main_arg0) (V c main_v38) (iblk0 (F := Ideal) V c 0 t) (iblk0 (F := Ideal) V c 1 t) t.val
    (read_x V c t) (read_w V c t) j (((cfg0.win 3).blk t).view.emb j) ?_ ?_
  · show win0_3.index t (0 : Fin 2) * 5000 + 1 * (j 0).val = t.val * 5000 + (j 0).val; omega
  · show win0_3.index t (1 : Fin 2) * 128 + 1 * (j 1).val = (j 1).val; omega

/-- An index of the first output array is in point t's block iff each coordinate is in the block's range. -/
theorem mem_blkL (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v39_0).slice (win0_2.rect t)).set ↔ _
  rw [View.set_slice_whole, Rect.mem_set_unit]
  exact Iff.rfl

/-- The same for the second output array. -/
theorem mem_blkR (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v39_1).slice (win0_3.rect t)).set ↔ _
  rw [View.set_slice_whole, Rect.mem_set_unit]
  exact Iff.rfl

/-- The grid point whose blocks hold row r: r / 5000. -/
theorem point_of_row (i : S50000x128.Idx) : ∃ t : Fin cfg0.N, t.val = (i 0).val / 5000 := by
  have hi0 : (i 0).val < 50000 := (i 0).isLt
  exact ⟨⟨(i 0).val / 5000, by rw [show cfg0.N = 10 from N_0]; omega⟩, rfl⟩

/-- Every index of the first output array is in the block of the point that holds its row. -/
theorem coverL (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := point_of_row i
  obtain ⟨-, -, -, -, e0, e1, -⟩ := block_indices t
  refine ⟨t, flush0_2 t, ?_⟩
  rw [mem_blkL]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The same for the second output array. -/
theorem coverR (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := point_of_row i
  obtain ⟨-, -, -, -, -, -, e0, e1⟩ := block_indices t
  refine ⟨t, flush0_3 t, ?_⟩
  rw [mem_blkR]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The first output array after the region: the left half of x · wc, for the x and wc the region finds. -/
theorem arrL (c : Dev nD) :
    (dat0 (F := Ideal) V c).arrAt 2 cfg0.N = projL (V c main_arg0) (V c main_v38) :=
  (dat0 (F := Ideal) V c).arrAt_eq_of_cover 2 (projL (V c main_arg0) (V c main_v38)) (fun t _ => flushedL V c t) coverL

/-- The second output array after the region: the right half of x · wc. -/
theorem arrR (c : Dev nD) :
    (dat0 (F := Ideal) V c).arrAt 3 cfg0.N = projR (V c main_arg0) (V c main_v38) :=
  (dat0 (F := Ideal) V c).arrAt_eq_of_cover 3 (projR (V c main_arg0) (V c main_v38)) (fun t _ => flushedR V c t) coverR

/-! ## The reference's two products -/

/-- The concatenated weight in its left half: column q of row k is entry (k, q) of w. -/
theorem wcat_left (w : (⟨S256x128, .f32⟩ : BufTy).Contents (Elt Ideal)) (k q : Fin 128) :
    Cert.Bridge.wcat w (ix2 k (colL q)) = w (ix2 (colL k) q) := by
  unfold Cert.Bridge.wcat
  refine (concatenate_pair_apply_left (t := S128x256) (s₁ := S128x128) (s₂ := S128x128) (1 : Fin 2) _ _ _ (ix2 k (colL q)) rfl (ix2 k q : S128x128.Idx) (fun b => ?_)).trans ?_
  · match b with
    | ⟨0, _⟩ => rfl
    | ⟨1, _⟩ => rfl
  · exact extractStridedSlice_apply ![0, 0] w _ (ix2 k q) (ix2 (colL k) q) (fun a => by
      match a with
      | ⟨0, _⟩ => show k.val = 0 + k.val; omega
      | ⟨1, _⟩ => show q.val = 0 + q.val; omega)

/-- The concatenated weight in its right half: column 128 + q of row k is entry (128 + k, q) of w. -/
theorem wcat_right (w : (⟨S256x128, .f32⟩ : BufTy).Contents (Elt Ideal)) (k q : Fin 128) :
    Cert.Bridge.wcat w (ix2 k (colR q)) = w (ix2 (colR k) q) := by
  unfold Cert.Bridge.wcat
  refine (concatenate_pair_apply_right (t := S128x256) (s₁ := S128x128) (s₂ := S128x128) (1 : Fin 2) _ _ _ (ix2 k (colR q)) rfl rfl (ix2 k q : S128x128.Idx) (fun b hb => ?_) ?_).trans ?_
  · match b with
    | ⟨0, _⟩ => rfl
    | ⟨1, _⟩ => exact absurd rfl hb
  · show q.val + 128 = 128 + q.val; omega
  · exact extractStridedSlice_apply ![128, 0] w _ (ix2 k q) (ix2 (colR k) q) (fun a => by
      match a with
      | ⟨0, _⟩ => show 128 + k.val = 128 + k.val; omega
      | ⟨1, _⟩ => show q.val = 0 + q.val; omega)

/-- The left half of x · wcat w is the reference's product of x with the first 128 rows of w. -/
theorem projL_wcat (x : (⟨S50000x128, .f32⟩ : BufTy).Contents (Elt Ideal)) (w : (⟨S256x128, .f32⟩ : BufTy).Contents (Elt Ideal)) :
    projL x (Cert.Bridge.wcat w) = Cert.ReferenceIdeal.Read.val_main_v38 (F := Ideal) x w := by
  funext i
  rw [Cert.ReferenceIdeal.Read.val_main_v38_apply]
  unfold projL
  refine Finset.sum_congr rfl fun k _ => ?_
  rw [wcat_left, Cert.ReferenceIdeal.Read.val_main_v36_apply]
  have el : (ix2 (rowOf i) k : S50000x128.Idx) = Cert.ReferenceIdeal.Read.lidx_main_v38 i k :=
    funext fun a => match a with | ⟨0, _⟩ => rfl | ⟨1, _⟩ => rfl
  have er : (ix2 (colL k) (colOf i) : S256x128.Idx)
      = Cert.ReferenceIdeal.Read.idx_main_v36 (Cert.ReferenceIdeal.Read.ridx_main_v38 i k) :=
    funext fun a => match a with | ⟨0, _⟩ => rfl | ⟨1, _⟩ => rfl
  rw [el, er]

/-- The right half of x · wcat w is the reference's product of x with the last 128 rows of w. -/
theorem projR_wcat (x : (⟨S50000x128, .f32⟩ : BufTy).Contents (Elt Ideal)) (w : (⟨S256x128, .f32⟩ : BufTy).Contents (Elt Ideal)) :
    projR x (Cert.Bridge.wcat w) = Cert.ReferenceIdeal.Read.val_main_v39 (F := Ideal) x w := by
  funext i
  rw [Cert.ReferenceIdeal.Read.val_main_v39_apply]
  unfold projR
  refine Finset.sum_congr rfl fun k _ => ?_
  rw [wcat_right, Cert.ReferenceIdeal.Read.val_main_v37_apply]
  have el : (ix2 (rowOf i) k : S50000x128.Idx) = Cert.ReferenceIdeal.Read.lidx_main_v39 i k :=
    funext fun a => match a with | ⟨0, _⟩ => rfl | ⟨1, _⟩ => rfl
  have er : (ix2 (colR k) (colOf i) : S256x128.Idx)
      = Cert.ReferenceIdeal.Read.idx_main_v37 (Cert.ReferenceIdeal.Read.ridx_main_v39 i k) :=
    funext fun a => match a with | ⟨0, _⟩ => rfl | ⟨1, _⟩ => rfl
  rw [el, er]

/-! ## The two output arrays of the region, against the reference -/

/-- When the region finds the concatenated weight, its first output array ends holding the reference's x · w[0:128]. -/
theorem xa_eq (c : Dev nD) (w : (⟨S256x128, .f32⟩ : BufTy).Contents (Elt Ideal))
    (hw : V c main_v38 = Cert.Bridge.wcat w) :
    (dat0 (F := Ideal) V c).arrAt 2 cfg0.N = Cert.ReferenceIdeal.Read.val_main_v38 (F := Ideal) (V c main_arg0) w := by
  rw [arrL, hw]
  exact projL_wcat (V c main_arg0) w

/-- and its second output array the reference's x · w[128:256]. -/
theorem xb_eq (c : Dev nD) (w : (⟨S256x128, .f32⟩ : BufTy).Contents (Elt Ideal))
    (hw : V c main_v38 = Cert.Bridge.wcat w) :
    (dat0 (F := Ideal) V c).arrAt 3 cfg0.N = Cert.ReferenceIdeal.Read.val_main_v39 (F := Ideal) (V c main_arg0) w := by
  rw [arrR, hw]
  exact projR_wcat (V c main_arg0) w

end Cert.Bridge.Proj

end
-- ==== Proof.FinalValue.lean ====
/-
  What the second call leaves in its output array.

  The call runs over ten points. Point t holds rows 5000·t … 5000·t + 4999 of the aggregated rows u : [50000, 128],
  the whole right operand wt : [128, 128] and the whole bias b : [128], and stores max (u_block · wt + b, 0) into the
  same rows of the output array. So after the ten points the output array is ONE function of the three arrays as the
  region finds them: entry (r, j) is max (∑ₖ u[r, k] · wt[k, j] + b[j], 0). At the ideal values a change of format is
  the identity and a product into a zero accumulator is the plain sum, so no law of arithmetic is used.

  The steps: the stored value of a block read at an entry (p, q); the same entry as an entry of the whole-array
  function when the block's row p is the array's row 5000·t + p; what point t writes back is block t of that
  function; every row r lies in the block of point r / 5000, so the blocks cover the array; and, when the right
  operand is the transposed weight, the whole-array function is the reference's last layer.
-/
import proofs.«178055_j16372415332361_2_alg».proof.Proof.Gen.KernelIdeal.Frame
import proofs.«178055_j16372415332361_2_alg».proof.Proof.Spec
import proofs.«178055_j16372415332361_2_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.Final

open Idealize.ShloMosaic Idealize.ShloMosaic.TcCoe Idealize.ShloMosaic.ValueIdx Cert.KernelIdeal Cert.KernelIdeal.Gen
open Idealize.ShloMosaic.Pipeline (Dat)

/-- The four coordinate facts of the kernel's product record. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored value at entry (p, q) of a block: the row-by-column sum, plus the bias at the column, clipped at zero
    (the casts to the same shape and the changes of format are the identity; the bias is cast to one row and that row
    repeated down the block). -/
theorem stored_entry (x0 : Vec Ideal S5000x128 .f32) (x1 : Vec Ideal S128x128 .f32) (x2 : Vec Ideal S128 .f32)
    (p : Fin 5000) (q : Fin 128) :
    k1_pay1 (F := Ideal) x0 x1 x2 (ix2 p q)
      = max ((∑ k : Fin 128, x0 (ix2 p k) * x1 (ix2 k q)) + x2 (ix1 q)) (FloatOps.ofBits (F := Ideal) .f32 0x00000000#32) := by
  unfold k1_pay1
  rw [maximumf_apply, addf_apply, broadcast_apply, shapeCast_self, shapeCast_self, broadcastTo_1b_ab_apply, shapeCast_a_1a_apply]
  refine congrArg (fun z => max (z + x2 (ix1 q)) (FloatOps.ofBits (F := Ideal) .f32 0x00000000#32)) ?_
  exact Cert.GraphConv.matmul_zero_sum dot_S5000x128_S128x128_S5000x128_1_0_0_1_n_n none rfl rfl lhs_row lhs_contr rhs_contr rhs_col
    (truncf .bf16 x0 bitsLt_bf16_f32) (truncf .bf16 x1 bitsLt_bf16_f32) (ix2 p q)

/-- The dense layer clipped at zero, on the whole array: entry (r, j) is max (∑ₖ u[r,k] · wt[k,j] + b[j], 0). -/
def denseRelu (u : S50000x128.Idx → Elt Ideal .f32) (wt : S128x128.Idx → Elt Ideal .f32) (b : S128.Idx → Elt Ideal .f32) :
    S50000x128.Idx → Elt Ideal .f32 :=
  fun i => max ((∑ k : Fin 128, u (ix2 (i 0) k) * wt (ix2 k (i 1))) + b (ix1 (i 1))) (FloatOps.ofBits (F := Ideal) .f32 0x00000000#32)

/-- A block's entry (p, q) is the whole array's entry (r, q) when the block's row p is the array's row r and the
    block's weight and bias are the whole ones. -/
theorem block_entry (x0 : Vec Ideal S5000x128 .f32) (x1 : Vec Ideal S128x128 .f32) (x2 : Vec Ideal S128 .f32)
    (u : S50000x128.Idx → Elt Ideal .f32) (wt : S128x128.Idx → Elt Ideal .f32) (b : S128.Idx → Elt Ideal .f32)
    (p : Fin 5000) (q : Fin 128) (r : Fin 50000)
    (h0 : ∀ k : Fin 128, x0 (ix2 p k) = u (ix2 r k)) (h1 : x1 = wt) (h2 : x2 = b) :
    k1_pay1 (F := Ideal) x0 x1 x2 (ix2 p q) = denseRelu u wt b (ix2 r q) := by
  subst h1 h2
  rw [stored_entry]
  show _ = max ((∑ k : Fin 128, u (ix2 r k) * x1 (ix2 k q)) + x2 (ix1 q)) (FloatOps.ofBits (F := Ideal) .f32 0x00000000#32)
  simp only [h0]

variable (V : (c : Dev nD) → (b : Ref sig .tc) → Buf (Elt Ideal) ((c : Thread nD τ).loc b))

/-- The zero offsets of a whole-buffer access, in the two spellings. -/
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the ten points: the row blocks of the input and of the output move with the point,
    the weight and the bias stay. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is block t of the dense layer of the three arrays: the stored value is the payload of the
    three input blocks, whose coordinates are block index × block size + 1 × the coordinate inside the block. -/
theorem point_writes_block (c : Dev nD) (t : Fin cfg1.N) :
    (dat1 (F := Ideal) V c).flushed 3 t
      = ((cfg1.win 3).blk t).view.read (Elt Ideal) (denseRelu (V c main_v81) (V c main_v82) (V c main_arg4)) := by
  show (cfg1.win 3).cut (grid1.coords t) ((dat1 V c).after 3 t) = _
  rw [after1_3]
  unfold out1_3
  rw [View.canon_unit_zero zeros2]
  simp only [View.ld_unit_zero (S := S5000x128) zeros2, View.ld_unit_zero (S := S128x128) zeros2, View.ld_unit_zero (S := S128) zeros1]
  obtain ⟨e00, e01, e10, e11, e20, e30, e31⟩ := block_indices t
  have ht : t.val < 10 := Nat.lt_of_lt_of_eq t.isLt (show cfg1.N = 10 from N_1)
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
      = denseRelu (V c main_v81) (V c main_v82) (V c main_arg4) (((cfg1.win 3).blk t).view.emb (ix2 p q))
  have he : ((cfg1.win 3).blk t).view.emb (ix2 p q) = ix2 (⟨5000 * t.val + p.val, by omega⟩ : Fin 50000) q := by
    funext a; apply Fin.ext
    match a with
    | ⟨0, _⟩ => show win1_3.index t (0 : Fin 2) * 5000 + 1 * p.val = 5000 * t.val + p.val; omega
    | ⟨1, _⟩ => show win1_3.index t (1 : Fin 2) * 128 + 1 * q.val = q.val; omega
  rw [he]
  refine block_entry (iblk1 V c 0 t) (iblk1 V c 1 t) (iblk1 V c 2 t) (V c main_v81) (V c main_v82) (V c main_arg4) p q _ ?_ ?_ ?_
  · intro k
    show V c main_v81 (((cfg1.win 0).blk t).view.emb (ix2 p k)) = V c main_v81 (ix2 (⟨5000 * t.val + p.val, by omega⟩ : Fin 50000) k)
    refine congrArg (V c main_v81) ?_
    funext a; apply Fin.ext
    match a with
    | ⟨0, _⟩ => show win1_0.index t (0 : Fin 2) * 5000 + 1 * p.val = 5000 * t.val + p.val; omega
    | ⟨1, _⟩ => show win1_0.index t (1 : Fin 2) * 128 + 1 * k.val = k.val; omega
  · funext y
    show V c main_v82 (((cfg1.win 1).blk t).view.emb y) = V c main_v82 y
    refine congrArg (V c main_v82) ?_
    funext a; apply Fin.ext
    match a with
    | ⟨0, _⟩ => show win1_1.index t (0 : Fin 2) * 128 + 1 * (y 0).val = (y 0).val; omega
    | ⟨1, _⟩ => show win1_1.index t (1 : Fin 2) * 128 + 1 * (y 1).val = (y 1).val; omega
  · funext y
    show V c main_arg4 (((cfg1.win 2).blk t).view.emb y) = V c main_arg4 y
    refine congrArg (V c main_arg4) ?_
    funext a; apply Fin.ext
    match a with
    | ⟨0, _⟩ => show win1_2.index t (0 : Fin 1) * 128 + 1 * (y 0).val = (y 0).val; omega

/-- An index of the array is in point t's block iff each coordinate is in the block's range on its axis. -/
theorem mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v83).slice (win1_3.rect t)).set ↔ _
  rw [View.set_slice_whole, Rect.mem_set_unit]
  exact Iff.rfl

/-- Row r of the array is in the block of point r / 5000. -/
theorem rows_covered (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, Nat.lt_of_lt_of_eq (by omega : (i 0).val / 5000 < 10) (show cfg1.N = 10 from N_1).symm⟩, rfl⟩
  obtain ⟨-, -, -, -, -, e30, e31⟩ := block_indices t
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the ten points is the dense layer of the three arrays as the region finds them. -/
theorem array_eq (c : Dev nD) :
    (dat1 (F := Ideal) V c).arrAt 3 cfg1.N = denseRelu (V c main_v81) (V c main_v82) (V c main_arg4) :=
  (dat1 (F := Ideal) V c).arrAt_eq_of_cover 3 (denseRelu (V c main_v81) (V c main_v82) (V c main_arg4))
    (fun t _ => point_writes_block V c t) rows_covered

/-- With the transposed weight as right operand, the dense layer is the reference's last layer: the host product is
    the same sum, the broadcast bias reads b at the column, and the clip's constant is the same zero word. -/
theorem denseRelu_eq_outOf (u : (⟨Cert.ReferenceIdeal.S50000x128, .f32⟩ : BufTy).Contents (Elt Ideal))
    (w3 : (⟨Cert.ReferenceIdeal.S128x128, .f32⟩ : BufTy).Contents (Elt Ideal))
    (b : (⟨Cert.ReferenceIdeal.S128, .f32⟩ : BufTy).Contents (Elt Ideal)) :
    denseRelu u (Cert.ReferenceIdeal.Read.val_main_v86 (F := Ideal) w3) b = Cert.Bridge.outOf u w3 b := by
  funext i
  unfold Cert.Bridge.outOf denseRelu
  rw [maximumf_apply, addf_apply, Cert.ReferenceIdeal.Read.val_main_call0_v0_apply,
    Cert.ReferenceIdeal.Read.val_main_call0_cst_apply, Cert.ReferenceIdeal.Read.val_main_v89_apply,
    Cert.ReferenceIdeal.Read.val_main_v88_apply]
  have hb : Cert.ReferenceIdeal.Read.idx_main_v88 (Cert.ReferenceIdeal.Read.idx_main_v89 i) = ix1 (i 1) :=
    funext fun a => Fin.ext (by match a with | ⟨0, _⟩ => rfl)
  rw [hb]
  refine congrArg (fun z => max (z + b (ix1 (i 1))) (FloatOps.ofBits (F := Ideal) .f32 0x00000000#32)) ?_
  exact (Cert.GraphConv.dotGeneral_sum Cert.ReferenceIdeal.dot_S50000x128_S128x128_S50000x128_1_0_0_1_n_n none .single rfl rfl
    Cert.ReferenceIdeal.Read.lhs_main_v87_0 Cert.ReferenceIdeal.Read.lhs_main_v87_1
    Cert.ReferenceIdeal.Read.rhs_main_v87_0 Cert.ReferenceIdeal.Read.rhs_main_v87_1
    u (Cert.ReferenceIdeal.Read.val_main_v86 (F := Ideal) w3) i).symm

/-- What the second call leaves in its output array, for any contents at the region's entry whose weight array is
    the transposed weight and whose bias array is the bias: the reference's last layer of the aggregated rows. -/
theorem out_eq (c : Dev nD) (w3 : (⟨S128x128, .f32⟩ : BufTy).Contents (Elt Ideal)) (b : (⟨S128, .f32⟩ : BufTy).Contents (Elt Ideal))
    (hw : V c main_v82 = Cert.ReferenceIdeal.Read.val_main_v86 (F := Ideal) w3) (hb : V c main_arg4 = b) :
    (dat1 (F := Ideal) V c).arrAt 3 cfg1.N = Cert.Bridge.outOf (V c main_v81) w3 b := by
  rw [array_eq V c, hw, hb]
  exact denseRelu_eq_outOf (V c main_v81) w3 b

end Cert.Bridge.Final

end
-- ==== Proof.lean ====
/-
  Equivalence of a graph message-passing layer written with two tiled projection kernels and its plain reference.

  Both programs compute, for node features `x : [50000, 128]`, 800000 weighted edges and one self loop per node:
  the symmetric-normalised edge weights; the per-node projections `xa = x · w[:128]` and `xb = x · w[128:]`; the gated
  messages `sigmoid (xa[src] + xb[dst]) * x[dst]` summed onto `x` by source; those rows re-gathered by source, weighed and
  summed by destination; and finally `max (rows · w_linᵀ + b, 0)`.

  The kernel's program differs from the reference in three places only. It computes `xa` and `xb` as the two halves of
  ONE product `x · [w[:128] | w[128:]]`, ten row blocks at a time (`Proj`): the same sums over `k`. It gathers the
  rows of `[xb | x]` once and slices the result (`Host`): a row gather commutes with a column slice. And it computes
  the last layer ten row blocks at a time (`Final`): the same sums over `k`, the same bias and clip. Every other
  operation is the reference's own, applied to equal operands, and is never opened. At the ideal values a change of
  float format is the identity and both matrix products are plain sums, so no law of arithmetic beyond reading these
  operations at an index is used, and the finiteness of the inputs is not needed.
-/
import proofs.«178055_j16372415332361_2_alg».proof.Defs
import proofs.«178055_j16372415332361_2_alg».proof.Proof.Gen.Kernel
import proofs.«178055_j16372415332361_2_alg».proof.Proof.Gen.Kernel.Frame
import proofs.«178055_j16372415332361_2_alg».proof.Proof.Gen.KernelIdeal
import proofs.«178055_j16372415332361_2_alg».proof.Proof.Gen.KernelIdeal.Frame
import proofs.«178055_j16372415332361_2_alg».proof.Proof.Gen.ReferenceIdeal
import proofs.«178055_j16372415332361_2_alg».proof.Proof.Gen.Pre_finite_inputs
import proofs.«178055_j16372415332361_2_alg».proof.Proof.Gen.ReferenceIdeal.Run
import proofs.«178055_j16372415332361_2_alg».proof.Proof.Gen.ReferenceIdeal.Read
import proofs.«178055_j16372415332361_2_alg».proof.Proof.Spec
import proofs.«178055_j16372415332361_2_alg».proof.Proof.KernelRun
import proofs.«178055_j16372415332361_2_alg».proof.Proof.HostChain
import proofs.«178055_j16372415332361_2_alg».proof.Proof.ProjValue
import proofs.«178055_j16372415332361_2_alg».proof.Proof.FinalValue
import Idealize.ShloMosaic.Adequacy
import Idealize.ShloMosaic.Init

noncomputable section

namespace Cert.Bridge

open Idealize.ShloMosaic Idealize.ShloMosaic.TcCoe Idealize.SL.Sem
open Cert.ReferenceIdeal.Read (val_main_v38 val_main_v39 val_main_v85 val_main_v86 val_main_v91)

section Kernel
open Cert.KernelIdeal Cert.KernelIdeal.Gen

variable (m : (ℓ : Loc nD τ sig) → Buf (Elt Ideal) ℓ) (ρ : Dev nD → PrngReg) (c : Dev nD)

/-- The first region leaves `x · w[:128]` in its first output array, -/
theorem proj_a : W2 m ρ c (Proc.devRef .tc main_v39_0)
    = val_main_v38 (F := Ideal) (m ((c : Thread nD τ).loc main_arg0)) (m ((c : Thread nD τ).loc main_arg2)) :=
  (W2_arr m ρ c 2).trans ((Proj.xa_eq (V1 m ρ) c _ (Host.W1_v38 m ρ c)).trans
    (congrArg (fun x => val_main_v38 (F := Ideal) x (m ((c : Thread nD τ).loc main_arg2))) (Host.W1_arg0 m ρ c)))

/-- and `x · w[128:]` in its second. -/
theorem proj_b : W2 m ρ c (Proc.devRef .tc main_v39_1)
    = val_main_v39 (F := Ideal) (m ((c : Thread nD τ).loc main_arg0)) (m ((c : Thread nD τ).loc main_arg2)) :=
  (W2_arr m ρ c 3).trans ((Proj.xb_eq (V1 m ρ) c _ (Host.W1_v38 m ρ c)).trans
    (congrArg (fun x => val_main_v39 (F := Ideal) x (m ((c : Thread nD τ).loc main_arg2))) (Host.W1_arg0 m ρ c)))

/-- The kernel program's result array: the last layer on the reference's aggregated rows. -/
theorem kernel_result : W4 m ρ c (Proc.devRef .tc main_v83)
    = outOf (val_main_v85 (F := Ideal) (m ((c : Thread nD τ).loc main_arg0)) (m ((c : Thread nD τ).loc main_arg1))
        (m ((c : Thread nD τ).loc main_arg2)) (m ((c : Thread nD τ).loc main_arg5)))
      (m ((c : Thread nD τ).loc main_arg3)) (m ((c : Thread nD τ).loc main_arg4)) :=
  (W4_arr m ρ c 3).trans ((Final.out_eq (V3 m ρ) c _ _ (Host.V3_v82 m ρ c) (Host.V3_arg4 m ρ c)).trans
    (congrArg (fun u => outOf u (m ((c : Thread nD τ).loc main_arg3)) (m ((c : Thread nD τ).loc main_arg4)))
      (Host.V3_v81 m ρ c (proj_a m ρ c) (proj_b m ρ c))))

end Kernel

/-- The reference's result is the last layer on its aggregated rows. -/
theorem reference_result (x0 : (⟨Cert.ReferenceIdeal.S50000x128, .f32⟩ : BufTy).Contents (Elt Ideal))
    (x1 : (⟨Cert.ReferenceIdeal.S800000, .f32⟩ : BufTy).Contents (Elt Ideal))
    (x2 : (⟨Cert.ReferenceIdeal.S256x128, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S800000x2, .i32⟩ : BufTy).Contents (Elt Ideal)) :
    val_main_v91 (F := Ideal) x0 x1 x2 x3 x4 x5 = outOf (val_main_v85 (F := Ideal) x0 x1 x2 x5) x3 x4 := rfl

end Cert.Bridge

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal values. -/
theorem preserves : Cert.preserves_Kernel_KernelIdeal := trivial

/-- From memories agreeing on the arguments both programs end with the last layer on the same aggregated rows. -/
theorem algebraic : Cert.algebraic_KernelIdeal_ReferenceIdeal := by
  intro m ρ m' ρ' _ hagree
  refine ⟨fun c => Cert.Bridge.outOf
      (Cert.ReferenceIdeal.Read.val_main_v85 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (Cert.Bridge.kernel_result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v91_eq, Cert.Bridge.reference_result,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
